-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S512x128 : Shape := ⟨2, ![512, 128]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S50000x128 .f32) (main_arg1 : IVec S800000 32) (main_arg2 : IVec S800000 32) (main_arg3 : FVec F S512x128 .f32) (main_arg4 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S512x128 : Shape := ⟨2, ![512, 128]⟩
abbrev S512 : Shape := ⟨1, ![512]⟩
abbrev S_ : Shape := ⟨0, ![]⟩
abbrev S800000x1 : Shape := ⟨2, ![800000, 1]⟩
abbrev S800000x128 : Shape := ⟨2, ![800000, 128]⟩
abbrev S128x512 : Shape := ⟨2, ![128, 512]⟩
abbrev S1x512 : Shape := ⟨2, ![1, 512]⟩
abbrev S50000x512 : Shape := ⟨2, ![50000, 512]⟩
abbrev S8192x128 : Shape := ⟨2, ![8192, 128]⟩
abbrev S8192x512 : Shape := ⟨2, ![8192, 512]⟩

abbrev nBuf : Space → Nat
  | .hbm => 21
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S512x128, .f32⟩
  | .hbm, ⟨4, _⟩ => ⟨S512, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S128x512, .f32⟩
  | .hbm, ⟨19, _⟩ => ⟨S1x512, .f32⟩
  | .hbm, ⟨20, _⟩ => ⟨S50000x512, .f32⟩
  | .local _ .vmem, ⟨0, _⟩ => ⟨S8192x128, .f32⟩
  | .local _ .vmem, ⟨1, _⟩ => ⟨S8192x128, .f32⟩
  | .local _ .vmem, ⟨2, _⟩ => ⟨S128x512, .f32⟩
  | .local _ .vmem, ⟨3, _⟩ => ⟨S1x512, .f32⟩
  | .local _ .vmem, ⟨4, _⟩ => ⟨S8192x512, .f32⟩
  | .local _ .vmem, ⟨5, _⟩ => ⟨S8192x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S512x128_S128x512_1_0 : S512x128.Transposes [1, 0] S128x512
  shapeCasts_S512_S1x512 : S512.ShapeCasts S1x512
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8192x512 : S1x512.Broadcasts S8192x512
  inb_S8192x512_S8192x512_0_0 : ∀ a, (![0, 0] : Fin 2 → Nat) a + S8192x512.size a ≤ S8192x512.size a
  h_S8192x512 : 0 < S8192x512.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S8192x128_S128x512_S8192x512_1_0_0_1_n_n_wf : DotDims.WF S8192x128 S128x512 S8192x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S50000x128.size a
  hwx0_0 : ∀ i : grid0.Coords, EltTy.bits .f32 = 32 ∨ (Rect.unit (s := S50000x128) (fun a => cc0_transform_0 i a * S8192x128.size a) (fun a => (Pipeline.Clip.of (cc0_transform_0 i a) (S8192x128.size a) (S50000x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S50000x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x512.size a < S50000x512.size a
  hwx0_3 : ∀ i : grid0.Coords, EltTy.bits .f32 = 32 ∨ (Rect.unit (s := S50000x512) (fun a => cc0_transform_3 i a * S8192x512.size a) (fun a => (Pipeline.Clip.of (cc0_transform_3 i a) (S8192x512.size a) (S50000x512.size a)).extent (S8192x512.size a)) fun a => Pipeline.Clip.inb (Pipeline.Clip.ok_of (hstart0_3 i a))).WholeWords (EltTy.packing .f32)
  hwxs0_3 : ∀ i : grid0.Coords, EltTy.bits .f32 = 32 ∨ (Rect.unit (s := S8192x512) (fun _ => 0) (fun a => (Pipeline.Clip.of (cc0_transform_3 i a) (S8192x512.size a) (S50000x512.size a)).extent (S8192x512.size a)) fun a => (Nat.zero_add _).trans_le (Pipeline.Clip.extent_le (Pipeline.Clip.ok_of (hstart0_3 i a)))).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf

abbrev win0_0 : Pipeline.Window sig grid0 :=
  Pipeline.Window.ofSpecClip (Memref.whole main_v9) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v10) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v12) S8192x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S512x128 : Shape := ⟨2, ![512, 128]⟩
abbrev S512 : Shape := ⟨1, ![512]⟩
abbrev S_ : Shape := ⟨0, ![]⟩
abbrev S800000x1 : Shape := ⟨2, ![800000, 1]⟩
abbrev S800000x128 : Shape := ⟨2, ![800000, 128]⟩
abbrev S50000x512 : Shape := ⟨2, ![50000, 512]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S512x128, .f32⟩
  | .hbm, ⟨4, _⟩ => ⟨S512, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S50000x512, .f32⟩
  | .hbm, ⟨19, _⟩ => ⟨S1x512, .f32⟩
  | .hbm, ⟨20, _⟩ => ⟨S50000x512, .f32⟩
  | .hbm, ⟨21, _⟩ => ⟨S50000x512, .f32⟩
  | .hbm, ⟨22, _⟩ => ⟨S_, .f32⟩
  | .hbm, ⟨23, _⟩ => ⟨S50000x512, .f32⟩
  | .hbm, ⟨24, _⟩ => ⟨S50000x512, .i1⟩
  | .hbm, ⟨25, _⟩ => ⟨S_, .f32⟩
  | .hbm, ⟨26, _⟩ => ⟨S50000x512, .f32⟩
  | .hbm, ⟨27, _⟩ => ⟨S50000x512, .f32⟩
  | .hbm, ⟨28, _⟩ => ⟨S50000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S512x128_S50000x512_1_1_0_0_n_n_wf : DotDims.WF S50000x128 S512x128 S50000x512 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S512x128_S50000x512_1_1_0_0_n_n : DotDims S50000x128 S512x128 S50000x512 where
  lhsContracting := [1]
  rhsContracting := [1]
  lhsNonContracting := [0]
  rhsNonContracting := [0]
  lhsBatch := []
  rhsBatch := []
  wf := dot_S50000x128_S512x128_S50000x512_1_1_0_0_n_n_wf

class Facts : Prop extends Facts₀ where

variable [Facts]
-- ==== Proof.KernelBody.lean ====
/-
  The printed kernel's body on whole staging buffers, at any float instance; the proof data of its pipeline;
  the body obligation that leaves the result's buffer unnamed; the run and the frame from it.
-/
import proofs.«179701_j5549097746957_2_alg».proof.Proof.Gen.Kernel.Launch
import proofs.«179701_j5549097746957_2_alg».proof.Proof.Gen.Kernel.Skeleton
import proofs.«179701_j5549097746957_2_alg».proof.Proof.Gen.Kernel.Points
import proofs.«179701_j5549097746957_2_alg».proof.Proof.Gen.Kernel.Frame
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel function's triple

The body reads its three input buffers whole, multiplies, adds the bias row, applies the leaky
rectifier, and stores the result over the whole output buffer. -/

abbrev rX : Rect S8192x128 := Rect.unit (s := S8192x128) ![0, 0] S8192x128.size inb_S8192x128_S8192x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0
abbrev rO : Rect S8192x512 := Rect.unit (s := S8192x512) ![0, 0] S8192x512.size inb_S8192x512_S8192x512_0_0

/-- What the output buffer holds after the body: the one whole store, as a piece. -/
def outBuf (x0 : Vec F S8192x128 .f32) (x1 : Vec F S128x512 .f32) (x2 : Vec F S1x512 .f32) : Vec F S8192x512 .f32 :=
  View.canon [⟨rO, k0_pay1 (View.ld x0 rX) (View.ld x1 rW) (View.ld x2 rB)⟩]

theorem coverO (p0 : Vec F S8192x512 .f32) (y : S8192x512.Idx) :
    ∃ pc ∈ ([⟨rO, p0⟩] : List (View.Piece (Elt F) S8192x512 .f32)), y ∈ pc.1.set :=
  View.cover_of_tiled [⟨rO, p0⟩] S8192x512.size (by rfl) y

set_option maxHeartbeats 1000000 in
theorem sound_kernel (c : Dev nD) (E : Set ℕ) (i : grid0.Coords)
    (arg1 : Memref sig .tc .vmem S8192x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S8192x512 .f32) (harg4 : arg4.IsWhole)
    (x0 : Vec F S8192x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBuf x0 x1 x2)) -∗ K ⟨⟩))
      ⊢ wp frame (wpE (defs₀ (F := F)) Variants.none c none) E (cc0__linear_leaky_relu_kernel i arg1 harg1 arg2 harg2 arg3 harg3 arg4 harg4) K := by
  simp only [cc0__linear_leaky_relu_kernel_eq_skeleton]; unfold cc0__linear_leaky_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data

Window 0 carries the rows of the aggregated features, 8192 at a time; the seventh block has only 848 rows
inside the array, and past them the staging buffer holds words nothing names. Windows 1 and 2 carry the
transposed weights and the bias row, the same block at every point. Window 3 is the result's. -/

variable (m : (ℓ : Loc nD τ sig) → Buf (Elt F) ℓ) (ρ : Dev nD → PrngReg)

/-- The feature rows of point `t`, filled out to a whole buffer with the zero word past the array's end. -/
def xfill (c : Dev nD) (t : Fin cfg0.N) : S8192x128.Idx → Elt F .f32 :=
  win0_0.fill (grid0.coords t) (fun _ => Scalar.ofBits .f32 0#32) (iblk m c 0 t)

def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => outBuf (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBuf (xfill m c t) (iblk m c 1 t) (iblk m c 2 t) := by dsimp only [dats]

/-- The feature window is fetched at every point: its buffer holds the block's rows inside the array, and past
    them whatever the overwrite left. -/
theorem before0_0 (c : Dev nD) (t : Fin cfg0.N) (d) :
    (dats m 0 c).before 0 t d = win0_0.fill (grid0.coords t) d (iblk m c 0 t) :=
  (Dat.before_fetched _ 0 t (fetch0_0 t) d).trans (by unfold Dat.fetched Dat.blockOf iblk; rw [A_eq m c 0]; try rfl)

theorem cut_after0_0 (c : Dev nD) (t : Fin cfg0.N) :
    win0_0.cut (grid0.coords t) ((dats m 0 c).after 0 t) = iblk m c 0 t := by
  rw [after0_0]; exact win0_0.cut_fill _ _ _

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The result's buffer was written back at the point before: it holds anything. -/
theorem before0_3 (c : Dev nD) (t : Fin cfg0.N) (d) : (dats m 0 c).before 3 t d = d :=
  Dat.before_out_reset _ 3 rfl t (by
    by_cases h0 : t.val = 0
    · exact .inl h0
    · exact .inr ⟨h0, flush0_3 _⟩) d

/-! ## The body obligation that says nothing of the result's buffer -/

/-- The one window the frame does not read: the result's. -/
abbrev fgt : Fin cfg0.W → Bool := fun w => w.val == 3

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_1, after0_2]
  iintro ⟨HΦ, Ho, ⟨%d0, H0⟩, ⟨%d1, H1⟩, ⟨%d2, H2⟩, ⟨%X3, H3⟩⟩
  iapply (sound_kernel c Set.univ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [cut_after0_0]; try iexact H0
  isplitl [H1]; · iexact H1
  isplitl [H2]; · iexact H2
  iexists _; iexact H3

theorem body_obligationF (c : Dev nD) :
    BodyObligationLoose (dats (F := F) m 0 c) (defs₀ (F := F)) Variants.none () Set.univ fgt := fun t => by
  rw [bigSep_W0, bigSep_W0]
  exact sound_bodyF m c t

/-! ## The run that forgets the result, and the frame -/

set_option backward.isDefEq.respectTransparency.types false in
/-- Every weakly fair execution of @main terminates; every buffer that is no window's array ends as the region
    found it. Of the result's array nothing is said. -/
theorem run_mainF : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligationF m c).toRForget)
    (hshare := fun c => (dats m 0 c).share_full fun _ => rfl)
    (howed := fun _ _ => rfl) (V := V m) (hmain := hmain m Variants.none) (hA := A_eq m) (hΦ := fun _ _ => rfl)

/-- The five argument arrays are no window's array (the windows stage values @main computes from them): they end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_mainF m ρ)

end Cert.Kernel.Body

end
-- ==== Proof.IdealBody.lean ====
/-
  The idealized kernel's body on whole staging buffers, at any float instance; the proof data of its pipeline;
  the body obligation that leaves the result's buffer unnamed; the run and the frame from it.
-/
import proofs.«179701_j5549097746957_2_alg».proof.Proof.Gen.KernelIdeal.Launch
import proofs.«179701_j5549097746957_2_alg».proof.Proof.Gen.KernelIdeal.Skeleton
import proofs.«179701_j5549097746957_2_alg».proof.Proof.Gen.KernelIdeal.Points
import proofs.«179701_j5549097746957_2_alg».proof.Proof.Gen.KernelIdeal.Frame
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel function's triple

The body reads its three input buffers whole, multiplies, adds the bias row, applies the leaky
rectifier, and stores the result over the whole output buffer. -/

abbrev rX : Rect S8192x128 := Rect.unit (s := S8192x128) ![0, 0] S8192x128.size inb_S8192x128_S8192x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0
abbrev rO : Rect S8192x512 := Rect.unit (s := S8192x512) ![0, 0] S8192x512.size inb_S8192x512_S8192x512_0_0

/-- What the output buffer holds after the body: the one whole store, as a piece. -/
def outBuf (x0 : Vec F S8192x128 .f32) (x1 : Vec F S128x512 .f32) (x2 : Vec F S1x512 .f32) : Vec F S8192x512 .f32 :=
  View.canon [⟨rO, k0_pay1 (View.ld x0 rX) (View.ld x1 rW) (View.ld x2 rB)⟩]

theorem coverO (p0 : Vec F S8192x512 .f32) (y : S8192x512.Idx) :
    ∃ pc ∈ ([⟨rO, p0⟩] : List (View.Piece (Elt F) S8192x512 .f32)), y ∈ pc.1.set :=
  View.cover_of_tiled [⟨rO, p0⟩] S8192x512.size (by rfl) y

set_option maxHeartbeats 1000000 in
theorem sound_kernel (c : Dev nD) (E : Set ℕ) (i : grid0.Coords)
    (arg1 : Memref sig .tc .vmem S8192x128 .f32) (harg1 : arg1.IsWhole)
    (arg2 : Memref sig .tc .vmem S128x512 .f32) (harg2 : arg2.IsWhole)
    (arg3 : Memref sig .tc .vmem S1x512 .f32) (harg3 : arg3.IsWhole)
    (arg4 : Memref sig .tc .vmem S8192x512 .f32) (harg4 : arg4.IsWhole)
    (x0 : Vec F S8192x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBuf x0 x1 x2)) -∗ K ⟨⟩))
      ⊢ wp frame (wpE (defs₀ (F := F)) Variants.none c none) E (cc0__linear_leaky_relu_kernel i arg1 harg1 arg2 harg2 arg3 harg3 arg4 harg4) K := by
  simp only [cc0__linear_leaky_relu_kernel_eq_skeleton]; unfold cc0__linear_leaky_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data

Window 0 carries the rows of the aggregated features, 8192 at a time; the seventh block has only 848 rows
inside the array, and past them the staging buffer holds words nothing names. Windows 1 and 2 carry the
transposed weights and the bias row, the same block at every point. Window 3 is the result's. -/

variable (m : (ℓ : Loc nD τ sig) → Buf (Elt F) ℓ) (ρ : Dev nD → PrngReg)

/-- The feature rows of point `t`, filled out to a whole buffer with the zero word past the array's end. -/
def xfill (c : Dev nD) (t : Fin cfg0.N) : S8192x128.Idx → Elt F .f32 :=
  win0_0.fill (grid0.coords t) (fun _ => Scalar.ofBits .f32 0#32) (iblk m c 0 t)

def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => outBuf (xfill m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBuf (xfill m c t) (iblk m c 1 t) (iblk m c 2 t) := by dsimp only [dats]

/-- The feature window is fetched at every point: its buffer holds the block's rows inside the array, and past
    them whatever the overwrite left. -/
theorem before0_0 (c : Dev nD) (t : Fin cfg0.N) (d) :
    (dats m 0 c).before 0 t d = win0_0.fill (grid0.coords t) d (iblk m c 0 t) :=
  (Dat.before_fetched _ 0 t (fetch0_0 t) d).trans (by unfold Dat.fetched Dat.blockOf iblk; rw [A_eq m c 0]; try rfl)

theorem cut_after0_0 (c : Dev nD) (t : Fin cfg0.N) :
    win0_0.cut (grid0.coords t) ((dats m 0 c).after 0 t) = iblk m c 0 t := by
  rw [after0_0]; exact win0_0.cut_fill _ _ _

theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The result's buffer was written back at the point before: it holds anything. -/
theorem before0_3 (c : Dev nD) (t : Fin cfg0.N) (d) : (dats m 0 c).before 3 t d = d :=
  Dat.before_out_reset _ 3 rfl t (by
    by_cases h0 : t.val = 0
    · exact .inl h0
    · exact .inr ⟨h0, flush0_3 _⟩) d

/-! ## The body obligation that says nothing of the result's buffer -/

/-- The one window the frame does not read: the result's. -/
abbrev fgt : Fin cfg0.W → Bool := fun w => w.val == 3

def bodyPreF (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPostF (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_1, after0_2]
  iintro ⟨HΦ, Ho, ⟨%d0, H0⟩, ⟨%d1, H1⟩, ⟨%d2, H2⟩, ⟨%X3, H3⟩⟩
  iapply (sound_kernel c Set.univ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [cut_after0_0]; try iexact H0
  isplitl [H1]; · iexact H1
  isplitl [H2]; · iexact H2
  iexists _; iexact H3

theorem body_obligationF (c : Dev nD) :
    BodyObligationLoose (dats (F := F) m 0 c) (defs₀ (F := F)) Variants.none () Set.univ fgt := fun t => by
  rw [bigSep_W0, bigSep_W0]
  exact sound_bodyF m c t

/-! ## The run that forgets the result, and the frame -/

set_option backward.isDefEq.respectTransparency.types false in
/-- Every weakly fair execution of @main terminates; every buffer that is no window's array ends as the region
    found it. Of the result's array nothing is said. -/
theorem run_mainF : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligationF m c).toRForget)
    (hshare := fun c => (dats m 0 c).share_full fun _ => rfl)
    (howed := fun _ _ => rfl) (V := V m) (hmain := hmain m Variants.none) (hA := A_eq m) (hΦ := fun _ _ => rfl)

/-- The five argument arrays are no window's array (the windows stage values @main computes from them): they end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_mainF m ρ)

end Cert.KernelIdeal.Body

end
-- ==== Proof.Spec.lean ====
/-
  The layer as one function of three arrays: a row of aggregated features times a row of weights, plus the
  bias entry, through the leaky rectifier with slope the float nearest 0.01. Every operation is the ideal
  instance's; the two float literals stay as their words.
-/
import Idealize.ShloMosaic.PureOps.Ideal
import Idealize.ShloMosaic.Lib.ValueIdx

noncomputable section

open scoped BigOperators

namespace LeakyLinear

open Idealize.ShloMosaic Idealize.ShloMosaic.ValueIdx

/-- The leaky rectifier: a number at least zero is kept, any other is scaled by the slope. -/
def act (a : EReal) : EReal :=
  Scalar.select (FloatOps.cmpf (F := Ideal) (φ := .f32) .oge a (FloatOps.ofBits (F := Ideal) .f32 0x00000000#32)) a
    (FloatOps.mulf (F := Ideal) (φ := .f32) (FloatOps.ofBits (F := Ideal) .f32 0x3C23D70A#32) a)

/-- One output entry: the dot product of a feature row and a weight row, plus a bias entry, rectified. -/
def entry (hrow wrow : Fin 128 → EReal) (bo : EReal) : EReal :=
  act (FloatOps.addf (F := Ideal) (φ := .f32) (∑ k : Fin 128, hrow k * wrow k) bo)

/-- The whole result: entry (n, o) from row n of the features, row o of the weights, entry o of the bias. -/
def G (h : (⟨2, ![50000, 128]⟩ : Shape).Idx → EReal) (W : (⟨2, ![512, 128]⟩ : Shape).Idx → EReal)
    (b : (⟨1, ![512]⟩ : Shape).Idx → EReal) : (⟨2, ![50000, 512]⟩ : Shape).Idx → EReal := fun i =>
  entry (fun k => h (ix2 (n0 := 50000) ⟨(i 0).val, (i 0).isLt⟩ k)) (fun k => W (ix2 (n0 := 512) ⟨(i 1).val, (i 1).isLt⟩ k))
    (b (ix1 (n := 512) ⟨(i 1).val, (i 1).isLt⟩))

theorem G_apply (h : (⟨2, ![50000, 128]⟩ : Shape).Idx → EReal) (W : (⟨2, ![512, 128]⟩ : Shape).Idx → EReal)
    (b : (⟨1, ![512]⟩ : Shape).Idx → EReal) (n : Fin 50000) (o : Fin 512) :
    G h W b (ix2 n o) = entry (fun k => h (ix2 n k)) (fun k => W (ix2 o k)) (b (ix1 o)) := rfl

end LeakyLinear

end
-- ==== Proof.IdealPayload.lean ====
/-
  The idealized kernel's stored value at one entry of its block: row r of the staged features against column o of
  the staged weights, plus entry o of the staged bias row, rectified. The matrix product into a zero accumulator
  is the plain sum over the one contracted axis.
-/
import proofs.«179701_j5549097746957_2_alg».proof.Proof.Gen.KernelIdeal.Skeleton
import proofs.«179701_j5549097746957_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's dimension numbers: rows of the left operand, columns of the right, one contracted axis of 128. -/
abbrev dK : DotDims S8192x128 S128x512 S8192x512 := dot_S8192x128_S128x512_S8192x512_1_0_0_1_n_n

theorem lhs0 (i : S8192x512.Idx) (q : dK.contr.Idx) : (dK.lhsIdx i q 0).val = (i 0).val := by
  unfold DotDims.lhsIdx
  rw [dif_neg (show ¬(0 : Fin S8192x128.rank) ∈ dK.lhsBatch by decide), dif_pos (show (0 : Fin S8192x128.rank) ∈ dK.lhsNonContracting by decide)]
  rfl
theorem lhs1 (i : S8192x512.Idx) (q : dK.contr.Idx) : (dK.lhsIdx i q 1).val = (q ⟨0, by decide⟩).val :=
  dK.lhsIdx_val_of_single rfl i q
theorem rhs0 (i : S8192x512.Idx) (q : dK.contr.Idx) : (dK.rhsIdx i q 0).val = (q ⟨0, by decide⟩).val :=
  dK.rhsIdx_val_of_single rfl i q
theorem rhs1 (i : S8192x512.Idx) (q : dK.contr.Idx) : (dK.rhsIdx i q 1).val = (i 1).val := by
  unfold DotDims.rhsIdx
  rw [dif_neg (show ¬(1 : Fin S128x512.rank) ∈ dK.rhsBatch by decide), dif_pos (show (1 : Fin S128x512.rank) ∈ dK.rhsNonContracting by decide)]
  rfl

/-- The product into a zero accumulator at entry (r, o): the sum over k of left (r, k) times right (k, o). -/
theorem mm_apply (x0 : FVec Ideal S8192x128 .f32) (x1 : FVec Ideal S128x512 .f32) (r : Fin 8192) (o : Fin 512) :
    matmul (F := Ideal) (φ₁ := .f32) (φ₂ := .f32) dK none x0 x1 (constant S8192x512 .f32 0x00000000#32) (ix2 r o) = ∑ k : Fin 128, x0 (ix2 r k) * x1 (ix2 k o) := by
  simp only [matmul]
  rw [Ideal.matmul_constant_zero_apply, ← Equiv.sum_comp (contrEquiv1 dK 128 rfl rfl).symm]
  refine Finset.sum_congr rfl fun k _ => ?_
  have hk := contrEquiv1_symm_val dK 128 rfl rfl k
  have el : dK.lhsIdx (ix2 r o) ((contrEquiv1 dK 128 rfl rfl).symm k) = ix2 r k := funext fun a => Fin.ext (by
    match a with
    | ⟨0, _⟩ => exact lhs0 _ _
    | ⟨1, _⟩ => exact (lhs1 _ _).trans hk)
  have er : dK.rhsIdx (ix2 r o) ((contrEquiv1 dK 128 rfl rfl).symm k) = ix2 k o := funext fun a => Fin.ext (by
    match a with
    | ⟨0, _⟩ => exact (rhs0 _ _).trans hk
    | ⟨1, _⟩ => exact rhs1 _ _)
  rw [el, er]

/-- The bias row spread over the rows, at entry (r, o): the row's entry o. -/
theorem bias_apply {α : Type} (x2 : S1x512.Idx → α) (r : Fin 8192) (o : Fin 512) :
    broadcastTo S8192x512 x2 broadcasts_S1x512_S8192x512 (ix2 r o) = x2 (ix2 0 o) :=
  broadcastTo_apply x2 _ (ix2 r o) (ix2 0 o) (fun a => match a with
    | ⟨0, _⟩ => by show (0 : Nat) = if (1 : Nat) = 1 then 0 else _; rw [if_pos rfl]
    | ⟨1, _⟩ => by show o.val = if (512 : Nat) = 1 then 0 else o.val; rw [if_neg (by decide)])

/-- The pre-activation at entry (r, o). -/
theorem acc_apply (x0 : Vec Ideal S8192x128 .f32) (x1 : Vec Ideal S128x512 .f32) (x2 : Vec Ideal S1x512 .f32) (r : Fin 8192) (o : Fin 512) :
    addf (F := Ideal) (φ := .f32) (matmul (F := Ideal) (φ₁ := .f32) (φ₂ := .f32) dK none (shapeCast S8192x128 x0 shapeCasts_S8192x128_S8192x128) (shapeCast S128x512 x1 shapeCasts_S128x512_S128x512)
        (constant S8192x512 .f32 0x00000000#32))
      (broadcastTo S8192x512 (shapeCast S1x512 x2 shapeCasts_S1x512_S1x512) broadcasts_S1x512_S8192x512) (ix2 r o)
    = FloatOps.addf (F := Ideal) (φ := .f32) (∑ k : Fin 128, x0 (ix2 r k) * x1 (ix2 k o)) (x2 (ix2 0 o)) := by
  rw [shapeCast_self, shapeCast_self, shapeCast_self]
  exact congrArg₂ (FloatOps.addf (F := Ideal) (φ := .f32)) (mm_apply x0 x1 r o) (bias_apply x2 r o)

/-- The stored value at entry (r, o) of the block. -/
theorem pay_apply (x0 : Vec Ideal S8192x128 .f32) (x1 : Vec Ideal S128x512 .f32) (x2 : Vec Ideal S1x512 .f32) (r : Fin 8192) (o : Fin 512) :
    k0_pay1 (F := Ideal) x0 x1 x2 (ix2 r o)
      = LeakyLinear.entry (fun k => x0 (ix2 r k)) (fun k => x1 (ix2 k o)) (x2 (ix2 0 o)) :=
  congrArg LeakyLinear.act (acc_apply x0 x1 x2 r o)

end Cert.KernelIdeal.Payload

end
-- ==== Proof.IdealExact.lean ====
/-
  The idealized kernel's body obligation with the result's buffer named. An output row is computed from the same
  row of the staged features alone, so the rows of the result inside the array do not depend on what the staging
  buffer holds past the array's end.
-/
import proofs.«179701_j5549097746957_2_alg».proof.Proof.IdealBody
import proofs.«179701_j5549097746957_2_alg».proof.Proof.IdealPayload

set_option maxRecDepth 16384

noncomputable section

namespace Cert.KernelIdeal.Exact

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The one whole store through the whole buffer leaves its payload. -/
theorem outBuf_eq (x0 : Vec Ideal S8192x128 .f32) (x1 : Vec Ideal S128x512 .f32) (x2 : Vec Ideal S1x512 .f32) :
    outBuf (F := Ideal) x0 x1 x2 = k0_pay1 x0 x1 x2 := by
  have hz : (![0, 0] : Fin 2 → Nat) = fun _ => 0 := funext fun a => by fin_cases a <;> rfl
  unfold outBuf
  rw [View.canon_unit_zero hz]
  simp only [View.ld_unit_zero (S := S8192x128) hz, View.ld_unit_zero (S := S128x512) hz, View.ld_unit_zero (S := S1x512) hz]

/-- At every point the feature window and the result window are cut to the same number of rows, and the feature
    window keeps all 128 lanes. -/
theorem rows_agree : ∀ t : Fin cfg0.N,
    win0_0.xsize (grid0.coords t) 0 = win0_3.xsize (grid0.coords t) 0 ∧ win0_0.xsize (grid0.coords t) 1 = 128 :=
  (by decide +kernel : ∀ t : Fin grid0.N,
    win0_0.xsize (grid0.coords t) 0 = win0_3.xsize (grid0.coords t) 0 ∧ win0_0.xsize (grid0.coords t) 1 = 128)

/-- On the part a fetch moves, a filled buffer holds the block whatever filled the rest. -/
theorem fill_moved (i : grid0.Coords) (d d' : S8192x128.Idx → EReal) (g : (win0_0.xblock i).Idx → EReal) (j : S8192x128.Idx)
    (h : win0_0.moved i j = true) : win0_0.fill i d g j = win0_0.fill i d' g j := by
  unfold Window.fill; rw [dif_pos h, dif_pos h]

/-- The rows of the result inside the array are the same whatever the feature buffer holds past the array's end. -/
theorem cut_out (t : Fin cfg0.N) (d0 d1 : S8192x128.Idx → EReal) (x : (win0_0.xblock (grid0.coords t)).Idx → EReal)
    (w : Vec Ideal S128x512 .f32) (b : Vec Ideal S1x512 .f32) :
    win0_3.cut (grid0.coords t) (outBuf (F := Ideal) (win0_0.fill (grid0.coords t) d0 x) w b)
      = win0_3.cut (grid0.coords t) (outBuf (F := Ideal) (win0_0.fill (grid0.coords t) d1 x) w b) := by
  funext j
  show outBuf (F := Ideal) _ w b (win0_3.xinj (grid0.coords t) j) = outBuf (F := Ideal) _ w b (win0_3.xinj (grid0.coords t) j)
  rw [outBuf_eq, outBuf_eq]
  obtain ⟨r, o, hro, hr⟩ : ∃ (r : Fin 8192) (o : Fin 512), win0_3.xinj (grid0.coords t) j = ix2 r o ∧ r.val = (j 0).val :=
    ⟨_, _, eq_ix2 (n0 := 8192) (n1 := 512) (win0_3.xinj (grid0.coords t) j), rfl⟩
  rw [hro, pay_apply, pay_apply]
  have hr' : r.val < win0_0.xsize (grid0.coords t) 0 := by rw [(rows_agree t).1, hr]; exact (j 0).isLt
  refine congrArg (fun f => LeakyLinear.entry f _ _) (funext fun k => fill_moved _ _ _ _ _ ?_)
  rw [Window.moved_iff]
  intro a
  match a with
  | ⟨0, _⟩ => exact hr'
  | ⟨1, _⟩ => exact lt_of_lt_of_eq k.isLt (rows_agree t).2.symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (cfg0.grid.coords t) d ((cfg0.win 3).cut (cfg0.grid.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_1, after0_2]
  iintro ⟨HΦ, Ho, ⟨%d0, H0⟩, ⟨%d1, H1⟩, ⟨%d2, H2⟩, ⟨%X3, H3⟩⟩
  iapply (sound_kernel c Set.univ _ _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) ((dats m 0 c).after 0 t)))
    rw [cut_after0_0]; try iexact H0
  isplitl [H1]; · iexact H1
  isplitl [H2]; · iexact H2
  iexists outBuf (F := Ideal) (win0_0.fill (grid0.coords t) d0 (iblk m c 0 t)) (iblk m c 1 t) (iblk m c 2 t)
  change _ ⊢ owns (c : Thread nD τ) (st0_3 t) fullShare (win0_3.fill (grid0.coords t) _ (win0_3.cut (grid0.coords t) ((dats m 0 c).after 3 t)))
  rw [after0_3]; unfold xfill
  rw [win0_3.fill_congr_cut (grid0.coords t) (cut_out t d0 _ (iblk m c 0 t) (iblk m c 1 t) (iblk m c 2 t))]
  try iexact H3

theorem body_obligation (c : Dev nD) :
    BodyObligationLoose (dats (F := Ideal) m 0 c) (defs₀ (F := Ideal)) Variants.none () Set.univ := fun t => by
  rw [bigSep_W0, bigSep_W0]
  exact sound_body m c t

set_option backward.isDefEq.respectTransparency.types false in
/-- Every weakly fair execution terminates with every array of the pipeline at what the write-backs leave and every
    other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Exact

end
-- ==== Proof.IdealHost.lean ====
/-
  What the host operations before the region wrote into the arrays the windows stage: the features aggregated over
  the edges, the weights transposed, the bias as one row.
-/
import proofs.«179701_j5549097746957_2_alg».proof.Proof.IdealExact
import Idealize.ShloMosaic.Lib.StableHlo.Run

set_option maxRecDepth 16384

noncomputable section

namespace Cert.KernelIdeal.Final

open Cert.KernelIdeal Cert.KernelIdeal.Gen Cert.KernelIdeal.Body Cert.KernelIdeal.Payload Cert.KernelIdeal.Exact
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## What the host wrote into the windows' arrays -/

/-- The features aggregated over the edges: the sum, per destination node, of the source nodes' rows. -/
def aggregated (x0 : (⟨S50000x128, .f32⟩ : BufTy).Contents (Elt Ideal)) (x1 x2 : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128 x0
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

theorem V_v9 (c : Dev nD) : (V m c main_v9 : S50000x128.Idx → EReal)
    = aggregated (m ((c.tc : Thread nD τ).loc main_arg0)) (m ((c.tc : Thread nD τ).loc main_arg1)) (m ((c.tc : Thread nD τ).loc main_arg2)) := by
  dsimp only [Gen.V, Gen.hostOps0]; after_results <;> rfl

theorem V_v10 (c : Dev nD) : (V m c main_v10 : S128x512.Idx → EReal)
    = transpose S128x512 [1, 0] (m ((c.tc : Thread nD τ).loc main_arg3)) transposes_S512x128_S128x512_1_0 := by
  dsimp only [Gen.V, Gen.hostOps0]; after_results <;> rfl

theorem V_v11 (c : Dev nD) : (V m c main_v11 : S1x512.Idx → EReal)
    = shapeCast S1x512 (m ((c.tc : Thread nD τ).loc main_arg4)) shapeCasts_S512_S1x512 := by
  dsimp only [Gen.V, Gen.hostOps0]; after_results <;> rfl

end Cert.KernelIdeal.Final

end
-- ==== Proof.IdealBlocks.lean ====
/-
  The staged blocks read at an entry: a feature block's row inside the array is a row of the aggregated features,
  the staged weights are the weight array transposed, the staged bias row is the bias.
-/
import proofs.«179701_j5549097746957_2_alg».proof.Proof.IdealHost

set_option maxRecDepth 16384

noncomputable section

namespace Cert.KernelIdeal.Final

open Cert.KernelIdeal Cert.KernelIdeal.Gen Cert.KernelIdeal.Body Cert.KernelIdeal.Payload Cert.KernelIdeal.Exact
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The blocks -/

/-- Over the seven points: block t of the features and of the result starts at row 8192 t and spans all lanes;
    the weights and the bias row are their arrays whole; the result's block keeps all 512 lanes and ends at row
    8192 (t + 1) or at the array's end, whichever comes first. -/
theorem grid_facts : ∀ t : Fin cfg0.N,
    win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0
    ∧ win0_3.xsize (grid0.coords t) 1 = 512
    ∧ t.val * 8192 + win0_3.xsize (grid0.coords t) 0 = min ((t.val + 1) * 8192) 50000 :=
  (by decide +kernel : ∀ t : Fin grid0.N,
    win0_0.index t 0 = t.val ∧ win0_0.index t 1 = 0 ∧ win0_3.index t 0 = t.val ∧ win0_3.index t 1 = 0
    ∧ win0_1.index t 0 = 0 ∧ win0_1.index t 1 = 0 ∧ win0_2.index t 0 = 0 ∧ win0_2.index t 1 = 0
    ∧ win0_3.xsize (grid0.coords t) 1 = 512
    ∧ t.val * 8192 + win0_3.xsize (grid0.coords t) 0 = min ((t.val + 1) * 8192) 50000)

/-- Row r, lane k of a fetched feature block, for a row inside the array: row 8192 t + r of the array the block was
    cut from, whatever the buffer held past the array's end. -/
theorem feat_read (f : S50000x128.Idx → EReal) (d : S8192x128.Idx → EReal) (t : Fin cfg0.N) (r : Fin 8192) (k : Fin 128) (n : Fin 50000)
    (hr : r.val < win0_0.xsize (grid0.coords t) 0) (hn : n.val = t.val * 8192 + r.val) :
    win0_0.fill (grid0.coords t) d ((win0_0.blk t).view.read (Elt Ideal) f) (ix2 r k) = f (ix2 n k) := by
  have hm : win0_0.moved (grid0.coords t) (ix2 r k) = true := by
    rw [Window.moved_iff]; intro a
    match a with
    | ⟨0, _⟩ => exact hr
    | ⟨1, _⟩ => exact lt_of_lt_of_eq k.isLt (rows_agree t).2.symm
  unfold Window.fill
  rw [dif_pos hm]
  show f ((win0_0.blk t).view.emb _) = f (ix2 n k)
  refine congrArg f (funext fun a => Fin.ext ?_)
  match a with
  | ⟨0, _⟩ =>
    show win0_0.index t 0 * 8192 + 1 * r.val = n.val
    rw [(grid_facts t).1, hn]; omega
  | ⟨1, _⟩ =>
    show win0_0.index t 1 * 128 + 1 * k.val = k.val
    rw [(grid_facts t).2.1]; omega

theorem xfill_apply (c : Dev nD) (t : Fin cfg0.N) (r : Fin 8192) (k : Fin 128) (n : Fin 50000)
    (hr : r.val < win0_0.xsize (grid0.coords t) 0) (hn : n.val = t.val * 8192 + r.val) :
    xfill m c t (ix2 r k) = V m c main_v9 (ix2 n k) := by
  unfold xfill iblk
  exact feat_read (V m c main_v9) _ t r k n hr hn

/-- The staged weights are the transposed weight array whole: entry (k, o) is the weights' entry (o, k). -/
theorem wblk_apply (c : Dev nD) (t : Fin cfg0.N) (k : Fin 128) (o : Fin 512) :
    iblk m c 1 t (ix2 k o) = m ((c.tc : Thread nD τ).loc main_arg3) (ix2 o k) := by
  unfold iblk
  rw [View.read_apply]
  show V m c main_v10 _ = _
  have e : (((cfg0.win 1).blk t).view.emb (ix2 k o) : S128x512.Idx) = ix2 k o := funext fun a => Fin.ext (by
    match a with
    | ⟨0, _⟩ =>
      show win0_1.index t 0 * 128 + 1 * k.val = k.val
      rw [(grid_facts t).2.2.2.2.1]; omega
    | ⟨1, _⟩ =>
      show win0_1.index t 1 * 512 + 1 * o.val = o.val
      rw [(grid_facts t).2.2.2.2.2.1]; omega)
  rw [e, V_v10]
  exact transpose_apply _ _ _ (ix2 k o) (ix2 o k) (fun b => match b with
    | ⟨0, _⟩ => rfl
    | ⟨1, _⟩ => rfl)

/-- The staged bias row is the bias array as one row: entry (0, o) is the bias's entry o. -/
theorem bblk_apply (c : Dev nD) (t : Fin cfg0.N) (o : Fin 512) :
    iblk m c 2 t (ix2 0 o) = m ((c.tc : Thread nD τ).loc main_arg4) (ix1 o) := by
  unfold iblk
  rw [View.read_apply]
  show V m c main_v11 _ = _
  have e : (((cfg0.win 2).blk t).view.emb (ix2 0 o) : S1x512.Idx) = ix2 0 o := funext fun a => Fin.ext (by
    match a with
    | ⟨0, _⟩ =>
      show win0_2.index t 0 * 1 + 1 * 0 = 0
      rw [(grid_facts t).2.2.2.2.2.2.1]
    | ⟨1, _⟩ =>
      show win0_2.index t 1 * 512 + 1 * o.val = o.val
      rw [(grid_facts t).2.2.2.2.2.2.2.1]; omega)
  rw [e, V_v11]
  exact shapeCast_apply _ _ (ix2 0 o) (ix1 o) (by
    rw [Shape.rowMajor_val_one, Shape.rowMajor_val_two]
    show o.val = 0 * 512 + o.val
    omega)

end Cert.KernelIdeal.Final

end
-- ==== Proof.IdealCover.lean ====
/-
  The result's seven blocks cover its 50000 rows: row n lies under the block of point n / 8192, whose rows inside the
  array run from 8192 t to 8192 (t + 1) or the array's end.
-/
import proofs.«179701_j5549097746957_2_alg».proof.Proof.IdealBlocks

set_option maxRecDepth 16384

noncomputable section

namespace Cert.KernelIdeal.Final

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

/-- An index of the result is under point t's block when each coordinate is in the block's range inside the array. -/
theorem mem_blk (t : Fin cfg0.N) (i : S50000x512.Idx) :
    i ∈ ((cfg0.win 3).blk t).view.set ↔ ∀ a : Fin 2, win0_3.index t a * S8192x512.size a ≤ (i a).val
      ∧ (i a).val < win0_3.index t a * S8192x512.size a + win0_3.xsize (grid0.coords t) a := by
  show i ∈ ((View.whole main_v12).slice (win0_3.rect t)).set ↔ _
  rw [View.set_slice_whole, Rect.mem_set_unit]
  exact Iff.rfl

/-- Row n is under the block of point n / 8192. -/
theorem cover (i : S50000x512.Idx) : ∃ t : Fin cfg0.N, (cfg0.win 3).flush t = true ∧ i ∈ ((cfg0.win 3).blk t).view.set := by
  have hi : (i 0).val < 50000 := (i 0).isLt
  have h1 : (i 1).val < 512 := (i 1).isLt
  have hN : (i 0).val / 8192 < grid0.N := by rw [N_0]; omega
  obtain ⟨t, ht⟩ : ∃ t : Fin cfg0.N, t.val = (i 0).val / 8192 := ⟨⟨(i 0).val / 8192, hN⟩, rfl⟩
  refine ⟨t, flush0_3 t, ?_⟩
  rw [mem_blk]
  obtain ⟨-, -, e2, e3, -, -, -, -, e8, e9⟩ := grid_facts t
  intro a
  match a with
  | ⟨0, _⟩ =>
    show win0_3.index t 0 * 8192 ≤ (i 0).val ∧ (i 0).val < win0_3.index t 0 * 8192 + win0_3.xsize (grid0.coords t) 0
    rw [e2]; omega
  | ⟨1, _⟩ =>
    show win0_3.index t 1 * 512 ≤ (i 1).val ∧ (i 1).val < win0_3.index t 1 * 512 + win0_3.xsize (grid0.coords t) 1
    rw [e3, e8]; omega

end Cert.KernelIdeal.Final

end
-- ==== Proof.IdealFinal.lean ====
/-
  The result array after the idealized kernel's run, as one function of the arrays the region finds: block t of the
  result holds rows 8192 t onward of the layer's output, the seventh block only its 848 rows inside the array, and
  the seven blocks together are all 50000 rows.
-/
import proofs.«179701_j5549097746957_2_alg».proof.Proof.IdealCover

set_option maxRecDepth 16384

noncomputable section

namespace Cert.KernelIdeal.Final

open Cert.KernelIdeal Cert.KernelIdeal.Gen Cert.KernelIdeal.Body Cert.KernelIdeal.Payload Cert.KernelIdeal.Exact
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The layer's output as a function of the arrays the region finds. -/
def layer (c : Dev nD) : S50000x512.Idx → EReal :=
  LeakyLinear.G (V m c main_v9) (m ((c.tc : Thread nD τ).loc main_arg3)) (m ((c.tc : Thread nD τ).loc main_arg4))

/-- A block of the result read at an entry is the array at the entry's place in the array. -/
theorem read_result (f : S50000x512.Idx → EReal) (t : Fin cfg0.N) (j : (win0_3.xblock (grid0.coords t)).Idx) :
    ((cfg0.win 3).blk t).view.read (Elt Ideal) f j = f (((cfg0.win 3).blk t).view.emb j) := rfl

/-- What point t writes back is block t of the layer's output: row r of the block is row 8192 t + r. -/
theorem flushed_eq (c : Dev nD) (t : Fin cfg0.N) :
    (dats m 0 c).flushed 3 t = ((cfg0.win 3).blk t).view.read (Elt Ideal) (layer m c) := by
  show win0_3.cut (grid0.coords t) ((dats m 0 c).after 3 t) = _
  rw [after0_3, outBuf_eq]
  funext j
  obtain ⟨r, o, hro, hr, ho⟩ : ∃ (r : Fin 8192) (o : Fin 512),
      win0_3.xinj (grid0.coords t) j = ix2 r o ∧ r.val = (j 0).val ∧ o.val = (j 1).val :=
    ⟨_, _, eq_ix2 (n0 := 8192) (n1 := 512) (win0_3.xinj (grid0.coords t) j), rfl, rfl⟩
  show k0_pay1 (F := Ideal) _ _ _ (win0_3.xinj (grid0.coords t) j) = _
  rw [hro, pay_apply]
  have hjr : (j 0).val < win0_3.xsize (grid0.coords t) 0 := (j 0).isLt
  have hlt : t.val * 8192 + r.val < 50000 := by
    have := (grid_facts t).2.2.2.2.2.2.2.2.2; omega
  have hemb : (((cfg0.win 3).blk t).view.emb j : S50000x512.Idx) = ix2 (⟨t.val * 8192 + r.val, hlt⟩ : Fin 50000) o :=
    funext fun a => Fin.ext (by
      match a with
      | ⟨0, _⟩ =>
        show win0_3.index t 0 * 8192 + 1 * (j 0).val = t.val * 8192 + r.val
        rw [(grid_facts t).2.2.1, hr]; omega
      | ⟨1, _⟩ =>
        show win0_3.index t 1 * 512 + 1 * (j 1).val = o.val
        rw [(grid_facts t).2.2.2.1, ho]; omega)
  rw [read_result (layer m c) t j, hemb]
  unfold layer
  rw [LeakyLinear.G_apply]
  have e0 : (fun k : Fin 128 => xfill m c t (ix2 r k)) = fun k => V m c main_v9 (ix2 (⟨t.val * 8192 + r.val, hlt⟩ : Fin 50000) k) :=
    funext fun k => xfill_apply m c t r k _ (by rw [(rows_agree t).1, hr]; exact hjr) rfl
  have e1 : (fun k : Fin 128 => iblk m c 1 t (ix2 k o)) = fun k => m ((c.tc : Thread nD τ).loc main_arg3) (ix2 o k) :=
    funext fun k => wblk_apply m c t k o
  rw [e0, e1, bblk_apply]

/-- The result array ends holding the layer's output. -/
theorem final (c : Dev nD) : (dats m 0 c).arrAt 3 cfg0.N = layer m c :=
  (dats m 0 c).arrAt_eq_of_cover 3 (layer m c) (fun t _ => flushed_eq m c t) cover

/-- Every weakly fair execution of the idealized kernel's @main terminates with the result at the layer's output of
    the features aggregated over the edges, and the five arguments as launched. -/
theorem run : θ_run defs (onTc (τ := τ) (main (F := Ideal))) ⟨m, fun _ => 0, ρ⟩ (fun r => ∀ c : Dev nD,
      r.2.mem ((c.tc : Thread nD τ).loc main_v12)
        = LeakyLinear.G (aggregated (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 3).trans ((final m c).trans (by unfold layer; rw [V_v9])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Final

end
-- ==== Proof.RefValue.lean ====
/-
  The reference's result, read one operation at a time, is the layer's function of the aggregated features, the
  weights and the bias: its dot_general contracts the feature axis of both operands, its bias is spread over the
  rows, and its rectifier is the same select on the same comparison.
-/
import proofs.«179701_j5549097746957_2_alg».proof.Proof.Gen.ReferenceIdeal.Read
import proofs.«179701_j5549097746957_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

theorem lidx_eq (n : Fin 50000) (o : Fin 512) (k : Fin 128) : lidx_main_v10 (ix2 n o) k = ix2 n k :=
  funext fun a => Fin.ext (by match a with | ⟨0, _⟩ => rfl | ⟨1, _⟩ => rfl)
theorem ridx_eq (n : Fin 50000) (o : Fin 512) (k : Fin 128) : ridx_main_v10 (ix2 n o) k = ix2 o k :=
  funext fun a => Fin.ext (by match a with | ⟨0, _⟩ => rfl | ⟨1, _⟩ => rfl)
theorem bidx_eq (n : Fin 50000) (o : Fin 512) : idx_main_v11 (idx_main_v12 (ix2 n o)) = ix1 o :=
  funext fun a => Fin.ext (by match a with | ⟨0, _⟩ => rfl)

/-- The pre-activation at entry (n, o). -/
theorem pre_apply (x0 : (⟨S50000x128, .f32⟩ : BufTy).Contents (Elt Ideal)) (x1 x2 : (⟨S800000, .i32⟩ : BufTy).Contents (Elt Ideal))
    (x3 : (⟨S512x128, .f32⟩ : BufTy).Contents (Elt Ideal)) (x4 : (⟨S512, .f32⟩ : BufTy).Contents (Elt Ideal)) (n : Fin 50000) (o : Fin 512) :
    val_main_v13 (F := Ideal) x0 x1 x2 x3 x4 (ix2 n o)
      = FloatOps.addf (F := Ideal) (φ := .f32) (∑ k : Fin 128, val_main_v9 (F := Ideal) x0 x1 x2 (ix2 n k) * x3 (ix2 o k)) (x4 (ix1 o)) := by
  rw [val_main_v13_apply, val_main_v10_apply, val_main_v12_apply, val_main_v11_apply, bidx_eq]
  simp only [lidx_eq, ridx_eq]

/-- The reference's result is the layer's function. -/
theorem result_eq (x0 : (⟨S50000x128, .f32⟩ : BufTy).Contents (Elt Ideal)) (x1 x2 : (⟨S800000, .i32⟩ : BufTy).Contents (Elt Ideal))
    (x3 : (⟨S512x128, .f32⟩ : BufTy).Contents (Elt Ideal)) (x4 : (⟨S512, .f32⟩ : BufTy).Contents (Elt Ideal)) :
    val_main_v18 (F := Ideal) x0 x1 x2 x3 x4 = LeakyLinear.G (val_main_v9 (F := Ideal) x0 x1 x2) x3 x4 := by
  funext i
  obtain ⟨n, o, rfl⟩ : ∃ (n : Fin 50000) (o : Fin 512), i = ix2 n o := ⟨i 0, i 1, eq_ix2 i⟩
  rw [LeakyLinear.G_apply, val_main_v18_apply, val_main_v15_apply, val_main_v17_apply, val_main_v14_apply, val_main_v16_apply,
    val_main_cst_1_apply, val_main_cst_2_apply, pre_apply]
  rfl

end Cert.ReferenceIdeal.RefValue

end
-- ==== Proof.lean ====
/-
  A graph layer: each node sums the feature rows of its in-neighbours, then a linear map with bias and a leaky
  rectifier. The kernel computes the linear map and the rectifier 8192 rows at a time in seven blocks, the last
  of which overhangs the 50000 rows and is cut at the array's end; the reference computes them in one piece. Both
  aggregate the neighbours' rows by the same gather and scatter-add, carried here as one unopened function.

  At the ideal instance an output row of a block depends on the same row of the staged features only, so the rows
  the cut write-back moves do not depend on the words past the array's end; they are the reference's rows because
  a matrix product into a zero accumulator and a dot_general over the feature axis are the same finite sum. The
  claims about termination and the unchanged arguments of the two kernel programs are proved for any float
  instance with the result's buffer left unnamed.
-/
import proofs.«179701_j5549097746957_2_alg».proof.Defs
import proofs.«179701_j5549097746957_2_alg».proof.Proof.Gen.Kernel
import proofs.«179701_j5549097746957_2_alg».proof.Proof.Gen.KernelIdeal
import proofs.«179701_j5549097746957_2_alg».proof.Proof.Gen.ReferenceIdeal
import proofs.«179701_j5549097746957_2_alg».proof.Proof.Gen.Pre_finite_inputs
import proofs.«179701_j5549097746957_2_alg».proof.Proof.Gen.ReferenceIdeal.Run
import proofs.«179701_j5549097746957_2_alg».proof.Proof.KernelBody
import proofs.«179701_j5549097746957_2_alg».proof.Proof.IdealFinal
import proofs.«179701_j5549097746957_2_alg».proof.Proof.RefValue

noncomputable section

namespace Cert.Proof

open Idealize.ShloMosaic Idealize.SL.Sem

theorem frame_kernel : Cert.frame_Kernel := fun m ρ _ => Cert.Kernel.Body.frame m ρ

theorem frame_kernel_ideal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The aggregation is the same function in both programs. -/
theorem aggregated_eq (x0 : (⟨Cert.ReferenceIdeal.S50000x128, .f32⟩ : BufTy).Contents (Elt Ideal))
    (x1 x2 : (⟨Cert.ReferenceIdeal.S800000, .i32⟩ : BufTy).Contents (Elt Ideal)) :
    Cert.ReferenceIdeal.Read.val_main_v9 (F := Ideal) x0 x1 x2 = Cert.KernelIdeal.Final.aggregated x0 x1 x2 := rfl

/-- Both programs end with the layer's output of the aggregated features. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v18_eq, Cert.ReferenceIdeal.RefValue.result_eq, aggregated_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
